-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v18)) (v2 : (c : Dev Cert.KernelIdeal.nD) → Buf (Elt Ideal) ((c.tc : Thread Cert.KernelIdeal.nD Cert.KernelIdeal.τ).loc Cert.KernelIdeal.main_arg2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v18) = v1 c
          ∧ r.2.mem ((c.tc : Thread Cert.KernelIdeal.nD Cert.KernelIdeal.τ).loc Cert.KernelIdeal.main_arg2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_arg2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096 : Shape := ⟨1, ![4096]⟩
abbrev S10000x1024 : Shape := ⟨2, ![10000, 1024]⟩
abbrev S10000 : Shape := ⟨1, ![10000]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S10000x1024 : S_.BroadcastsInDim S10000x1024 (![] : Fin 0 → Fin S10000x1024.rank)
  reducesTo_S10000x1024_S_d0_1 : S10000x1024.ReducesTo [0, 1] S_
  bcast_S_S10000 : S_.BroadcastsInDim S10000 (![] : Fin 0 → Fin S10000.rank)
  reducesTo_S10000_S_d0 : S10000.ReducesTo [0] S_

variable [Facts]

def fn {F : FTy → Type} [FloatOps F] (main_arg0 : FVec F S4096x1024 .f32) (main_arg1 : IVec S4096 32) (main_arg2 : FVec F S10000x1024 .f32) (main_arg3 : FVec F S10000 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S10000x1024 .f32 := Host.absf main_arg2
  let main_cst_0 : FVec F S_ .f32 := constant S_ .f32 0x7F800000#32
  let main_v5 : FVec F S10000x1024 .f32 := broadcastInDim S10000x1024 ![] bcast_S_S10000x1024 main_cst_0
  let main_v6 : IVec S10000x1024 1 := cmpf .olt main_v4 main_v5
  let main_c_1 : IVec S_ 1 := constantI S_ 1 1#1
  let main_v7 : IVec S_ 1 := (fun x v => Host.reduce IntOp.andi x v reducesTo_S10000x1024_S_d0_1 h_S_) main_v6 main_c_1
  let main_v8 : IVec S_ 1 := andi main_v3 main_v7
  let main_v9 : FVec F S10000 .f32 := Host.absf main_arg3
  let main_cst_2 : FVec F S_ .f32 := constant S_ .f32 0x7F800000#32
  let main_v10 : FVec F S10000 .f32 := broadcastInDim S10000 ![] bcast_S_S10000 main_cst_2
  let main_v11 : IVec S10000 1 := cmpf .olt main_v9 main_v10
  let main_c_3 : IVec S_ 1 := constantI S_ 1 1#1
  let main_v12 : IVec S_ 1 := (fun x v => Host.reduce IntOp.andi x v reducesTo_S10000_S_d0 h_S_) main_v11 main_c_3
  let main_v13 : IVec S_ 1 := andi main_v8 main_v12
  main_v13
-- ==== Kernel.lean ====
abbrev S4096x1024 : Shape := ⟨2, ![4096, 1024]⟩
abbrev S4096 : Shape := ⟨1, ![4096]⟩
abbrev S10000x1024 : Shape := ⟨2, ![10000, 1024]⟩
abbrev S10000 : Shape := ⟨1, ![10000]⟩
abbrev S_ : Shape := ⟨0, ![]⟩
abbrev S10240x1024 : Shape := ⟨2, ![10240, 1024]⟩
abbrev S10240 : Shape := ⟨1, ![10240]⟩
abbrev S1x10240 : Shape := ⟨2, ![1, 10240]⟩
abbrev S4096x1 : Shape := ⟨2, ![4096, 1]⟩
abbrev S4096x10240 : Shape := ⟨2, ![4096, 10240]⟩
abbrev S512x1024 : Shape := ⟨2, ![512, 1024]⟩
abbrev S1024x1024 : Shape := ⟨2, ![1024, 1024]⟩
abbrev S1x1024 : Shape := ⟨2, ![1, 1024]⟩
abbrev S512x1 : Shape := ⟨2, ![512, 1]⟩
abbrev S512 : Shape := ⟨1, ![512]⟩
abbrev S1024 : Shape := ⟨1, ![1024]⟩
abbrev S4096x10000 : Shape := ⟨2, ![4096, 10000]⟩

abbrev nBuf : Space → Nat
  | .hbm => 33
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096, .i32⟩
  | .hbm, ⟨2, _⟩ => ⟨S10000x1024, .f32⟩
  | .hbm, ⟨3, _⟩ => ⟨S10000, .f32⟩
  | .hbm, ⟨4, _⟩ => ⟨S_, .i32⟩
  | .hbm, ⟨5, _⟩ => ⟨S_, .f32⟩
  | .hbm, ⟨6, _⟩ => ⟨S10240x1024, .f32⟩
  | .hbm, ⟨7, _⟩ => ⟨S_, .i32⟩
  | .hbm, ⟨8, _⟩ => ⟨S_, .f32⟩
  | .hbm, ⟨9, _⟩ => ⟨S10240, .f32⟩
  | .hbm, ⟨10, _⟩ => ⟨S1x10240, .f32⟩
  | .hbm, ⟨11, _⟩ => ⟨S4096x1, .i32⟩
  | .hbm, ⟨12, _⟩ => ⟨S4096x10240, .f32⟩
  | .hbm, ⟨13, _⟩ => ⟨S4096x10000, .f32⟩
  | .hbm, ⟨14, _⟩ => ⟨S_, .i32⟩
  | .hbm, ⟨15, _⟩ => ⟨S4096, .i32⟩
  | .hbm, ⟨16, _⟩ => ⟨S4096, .i1⟩
  | .hbm, ⟨17, _⟩ => ⟨S_, .i32⟩
  | .hbm, ⟨18, _⟩ => ⟨S4096, .i32⟩
  | .hbm, ⟨19, _⟩ => ⟨S4096, .i32⟩
  | .hbm, ⟨20, _⟩ => ⟨S4096, .i32⟩
  | .hbm, ⟨21, _⟩ => ⟨S4096x1, .i32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S512x1, .i32⟩
  | .local _ .vmem, ⟨7, _⟩ => ⟨S512x1, .i32⟩
  | .local _ .vmem, ⟨8, _⟩ => ⟨S512x1024, .f32⟩
  | .local _ .vmem, ⟨9, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_c_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 10], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  pads_S10000x1024_S10240x1024_02400_000 : S10000x1024.Pads (![0, 0] : Fin 2 → Nat) ![240, 0] ![0, 0] S10240x1024
  h_S_ : 0 < S_.numel
  pads_S10000_S10240_02400 : S10000.Pads (![0] : Fin 1 → Nat) ![240] ![0] S10240
  shapeCasts_S10240_S1x10240 : S10240.ShapeCasts S1x10240
  shapeCasts_S4096_S4096x1 : S4096.ShapeCasts S4096x1
  inb_S512x1024_S512x1024_0_0 : ∀ a, (![0, 0] : Fin 2 → Nat) a + S512x1024.size a ≤ S512x1024.size a
  h_S512x1024 : 0 < S512x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S512x1_S512x1_0_0 : ∀ a, (![0, 0] : Fin 2 → Nat) a + S512x1.size a ≤ S512x1.size a
  h_S512x1 : 0 < S512x1.numel
  shapeCasts_S512x1_S512x1 : S512x1.ShapeCasts S512x1
  bitsLt_bf16_f32 : FTy.bits .bf16 < FTy.bits .f32
  transposes_S1024x1024_p1_0_S1024x1024 : S1024x1024.Transposes [1, 0] S1024x1024
  reduces_S512x1024_S512 : S512x1024.Reduces [1] S512
  shapeCasts_S512_S512x1 : S512.ShapeCasts S512x1
  reduces_S1024x1024_S1024 : S1024x1024.Reduces [1] S1024
  shapeCasts_S1024_S1x1024 : S1024.ShapeCasts S1x1024
  broadcasts_S512x1_S512x1024 : S512x1.Broadcasts S512x1024
  broadcasts_S1x1024_S512x1024 : S1x1024.Broadcasts S512x1024
  iota_S512x1024_d1_w32 : S512x1024.Iotas .tc 32 [1]
  natLt_1_32 : 1 < 32
  slices_S4096x10240_S4096x10000_0_0 : S4096x10240.Slices ![0, 0] S4096x10000
  bcast_S_S4096 : S_.BroadcastsInDim S4096 (![] : Fin 0 → Fin S4096.rank)
  bcast_S4096_S4096x1_0 : S4096.BroadcastsInDim S4096x1 (![0] : Fin 1 → Fin S4096x1.rank)
  reducesTo_S4096x1024_S_d0_1 : S4096x1024.ReducesTo [0, 1] S_
  dot_S512x1024_S1024x1024_S512x1024_1_0_0_1_n_n_wf : DotDims.WF S512x1024 S1024x1024 S512x1024 [1] [0] [0] [1] [] []
  gather_S10000x1024_S4096x1_S4096x1024_1_0_n_n_0_1_11024_wf : GatherDims.WF S10000x1024 S4096x1 S4096x1024 [1] [0] [] [0] [] 1 ![1, 1024]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S10240x1024.size a
  hwx0_1 : ∀ i : grid0.Coords, EltTy.bits .f32 = 32 ∨ (Rect.block (s := S10240x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x10240.size a
  hwx0_2 : ∀ i : grid0.Coords, EltTy.bits .f32 = 32 ∨ (Rect.block (s := S1x10240) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S4096x1.size a
  hwx0_3 : ∀ i : grid0.Coords, EltTy.bits .i32 = 32 ∨ (Rect.block (s := S4096x1) S512x1.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S4096x10240.size a
  hwx0_4 : ∀ i : grid0.Coords, EltTy.bits .f32 = 32 ∨ (Rect.block (s := S4096x10240) S512x1024.size (cc0_transform_4 i) (hinb0_4 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def gather_S10000x1024_S4096x1_S4096x1024_1_0_n_n_0_1_11024 : GatherDims S10000x1024 S4096x1 S4096x1024 where
  offsetDims := [1]
  collapsedSliceDims := [0]
  operandBatchingDims := []
  startIndicesBatchingDims := []
  startIndexMap := [0]
  indexVectorDim := 1
  sliceSizes := ![1, 1024]
  wf := gather_S10000x1024_S4096x1_S4096x1024_1_0_n_n_0_1_11024_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S4096 : Shape := ⟨1, ![4096]⟩
abbrev S10000x1024 : Shape := ⟨2, ![10000, 1024]⟩
abbrev S10000 : Shape := ⟨1, ![10000]⟩
abbrev S1024x10000 : Shape := ⟨2, ![1024, 10000]⟩
abbrev S4096x10000 : Shape := ⟨2, ![4096, 10000]⟩
abbrev S_ : Shape := ⟨0, ![]⟩
abbrev S4096x1 : Shape := ⟨2, ![4096, 1]⟩
abbrev S1x10000 : Shape := ⟨2, ![1, 10000]⟩

abbrev nBuf : Space → Nat
  | .hbm => 60
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096, .i32⟩
  | .hbm, ⟨2, _⟩ => ⟨S10000x1024, .f32⟩
  | .hbm, ⟨3, _⟩ => ⟨S10000, .f32⟩
  | .hbm, ⟨4, _⟩ => ⟨S1024x10000, .f32⟩
  | .hbm, ⟨5, _⟩ => ⟨S4096x10000, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S10000x1024, .f32⟩
  | .hbm, ⟨11, _⟩ => ⟨S_, .f32⟩
  | .hbm, ⟨12, _⟩ => ⟨S10000, .f32⟩
  | .hbm, ⟨13, _⟩ => ⟨S1x10000, .f32⟩
  | .hbm, ⟨14, _⟩ => ⟨S_, .f32⟩
  | .hbm, ⟨15, _⟩ => ⟨S4096x10000, .f32⟩
  | .hbm, ⟨16, _⟩ => ⟨S4096x10000, .f32⟩
  | .hbm, ⟨17, _⟩ => ⟨S4096x10000, .f32⟩
  | .hbm, ⟨18, _⟩ => ⟨S4096x10000, .f32⟩
  | .hbm, ⟨19, _⟩ => ⟨S4096x10000, .f32⟩
  | .hbm, ⟨20, _⟩ => ⟨S4096x10000, .f32⟩
  | .hbm, ⟨21, _⟩ => ⟨S_, .f32⟩
  | .hbm, ⟨22, _⟩ => ⟨S4096x10000, .f32⟩
  | .hbm, ⟨23, _⟩ => ⟨S4096x10000, .f32⟩
  | .hbm, ⟨24, _⟩ => ⟨S10000, .f32⟩
  | .hbm, ⟨25, _⟩ => ⟨S1x10000, .f32⟩
  | .hbm, ⟨26, _⟩ => ⟨S4096x10000, .f32⟩
  | .hbm, ⟨27, _⟩ => ⟨S4096x10000, .f32⟩
  | .hbm, ⟨28, _⟩ => ⟨S4096x1, .i32⟩
  | .hbm, ⟨29, _⟩ => ⟨S1x10000, .i32⟩
  | .hbm, ⟨30, _⟩ => ⟨S4096x10000, .i32⟩
  | .hbm, ⟨31, _⟩ => ⟨S4096x10000, .i32⟩
  | .hbm, ⟨32, _⟩ => ⟨S4096x10000, .i1⟩
  | .hbm, ⟨33, _⟩ => ⟨S4096x10000, .f32⟩
  | .hbm, ⟨34, _⟩ => ⟨S_, .f32⟩
  | .hbm, ⟨35, _⟩ => ⟨S4096x10000, .f32⟩
  | .hbm, ⟨36, _⟩ => ⟨S4096x10000, .f32⟩
  | .hbm, ⟨37, _⟩ => ⟨S_, .f32⟩
  | .hbm, ⟨38, _⟩ => ⟨S4096x10000, .f32⟩
  | .hbm, ⟨39, _⟩ => ⟨S4096x10000, .f32⟩
  | .hbm, ⟨40, _⟩ => ⟨S4096x10000, .f32⟩
  | .hbm, ⟨41, _⟩ => ⟨S_, .i32⟩
  | .hbm, ⟨42, _⟩ => ⟨S4096, .i32⟩
  | .hbm, ⟨43, _⟩ => ⟨S4096, .i1⟩
  | .hbm, ⟨44, _⟩ => ⟨S_, .i32⟩
  | .hbm, ⟨45, _⟩ => ⟨S4096, .i32⟩
  | .hbm, ⟨46, _⟩ => ⟨S4096, .i32⟩
  | .hbm, ⟨47, _⟩ => ⟨S4096, .i32⟩
  | .hbm, ⟨48, _⟩ => ⟨S4096x1, .i32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c : Ref sig .tc := ⟨.hbm, 41, rfl⟩
abbrev main_v26 : Ref sig .tc := ⟨.hbm, 42, rfl⟩
abbrev main_v27 : Ref sig .tc := ⟨.hbm, 43, rfl⟩
abbrev main_c_5 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_6 : Ref sig .tc := ⟨.hbm, 52, rfl⟩
abbrev main_v35 : Ref sig .tc := ⟨.hbm, 53, rfl⟩
abbrev main_cst_7 : Ref sig .tc := ⟨.hbm, 54, rfl⟩
abbrev main_v36 : Ref sig .tc := ⟨.hbm, 55, rfl⟩
abbrev main_cst_8 : Ref sig .tc := ⟨.hbm, 56, rfl⟩
abbrev main_v37 : Ref sig .tc := ⟨.hbm, 57, rfl⟩
abbrev main_cst_9 : Ref sig .tc := ⟨.hbm, 58, rfl⟩
abbrev main_v38 : Ref sig .tc := ⟨.hbm, 59, rfl⟩

abbrev nD : Nat := 1
abbrev τ : Topo := Topo.v7x

variable {F : FTy → Type} [FloatOps F]

class Facts₀ : Prop where
  transposes_S10000x1024_S1024x10000_1_0 : S10000x1024.Transposes [1, 0] S1024x10000
  reducesTo_S4096x1024_S4096_d1 : S4096x1024.ReducesTo [1] S4096
  h_S_ : 0 < S_.numel
  bcast_S4096_S4096x1_0 : S4096.BroadcastsInDim S4096x1 (![0] : Fin 1 → Fin S4096x1.rank)
  reducesTo_S10000x1024_S10000_d1 : S10000x1024.ReducesTo [1] S10000
  bcast_S10000_S1x10000_1 : S10000.BroadcastsInDim S1x10000 (![1] : Fin 1 → Fin S1x10000.rank)
  bcast_S_S4096x10000 : S_.BroadcastsInDim S4096x10000 (![] : Fin 0 → Fin S4096x10000.rank)
  bcast_S4096x1_S4096x10000_0_1 : S4096x1.BroadcastsInDim S4096x10000 (![0, 1] : Fin 2 → Fin S4096x10000.rank)
  bcast_S1x10000_S4096x10000_0_1 : S1x10000.BroadcastsInDim S4096x10000 (![0, 1] : Fin 2 → Fin S4096x10000.rank)
  bcast_S_S4096 : S_.BroadcastsInDim S4096 (![] : Fin 0 → Fin S4096.rank)
  reducesTo_S4096x1024_S_d0_1 : S4096x1024.ReducesTo [0, 1] S_
  dot_S4096x1024_S1024x10000_S4096x10000_1_0_0_1_n_n_wf : DotDims.WF S4096x1024 S1024x10000 S4096x10000 [1] [0] [0] [1] [] []
  gather_S10000x1024_S4096x1_S4096x1024_1_0_n_n_0_1_11024_wf : GatherDims.WF S10000x1024 S4096x1 S4096x1024 [1] [0] [] [0] [] 1 ![1, 1024]

variable [Facts₀]

def dot_S4096x1024_S1024x10000_S4096x10000_1_0_0_1_n_n : DotDims S4096x1024 S1024x10000 S4096x10000 where
  lhsContracting := [1]
  rhsContracting := [0]
  lhsNonContracting := [0]
  rhsNonContracting := [1]
  lhsBatch := []
  rhsBatch := []
  wf := dot_S4096x1024_S1024x10000_S4096x10000_1_0_0_1_n_n_wf
def gather_S10000x1024_S4096x1_S4096x1024_1_0_n_n_0_1_11024 : GatherDims S10000x1024 S4096x1 S4096x1024 where
  offsetDims := [1]
  collapsedSliceDims := [0]
  operandBatchingDims := []
  startIndicesBatchingDims := []
  startIndexMap := [0]
  indexVectorDim := 1
  sliceSizes := ![1, 1024]
  wf := gather_S10000x1024_S4096x1_S4096x1024_1_0_n_n_0_1_11024_wf

class Facts : Prop extends Facts₀ where

variable [Facts]
-- ==== Proof.Spec.lean ====
/-
  The logits of a Gaussian-mixture margin loss, as one function of the four argument arrays, and the
  regularisation term that goes with them.

  For a batch of B feature rows x_r in R^D, C class means mu_c in R^D, one scale v_c per class and one label per row,

      logit (r, c) = ( -1/2 * ( (|x_r|^2 - 2 * <x_r, mu_c>) + |mu_c|^2 ) ) * (v_c * v_c) * (1 + a * [label_r = c])

  with |x|^2 and <x, y> the plain sums over the D coordinates, a the float nearest 0.1, and [label_r = c] the number 1 when
  the label's 32-bit word is the word of c and 0 otherwise. Everything is read on the extended reals, with the
  grouping written above: no sum is re-associated across a product and no factor is distributed, so nothing here asks
  the entries to be finite.
-/
import Idealize.ShloMosaic.PureOps.Ideal
import Idealize.ShloMosaic.PureOps.Ideal.Laws
import Idealize.ShloMosaic.Lib.ValueIdx

noncomputable section

open scoped BigOperators

namespace Cert.MarginLogits

open Idealize.ShloMosaic Idealize.ShloMosaic.ValueIdx

/-- One logit from its five ingredients: xx = |x|^2, xy = <x, mu>, yy = |mu|^2, v the class's scale, h the 0/1
    indicator that the class is the row's label. The four float words are -0.5, 2.0, 1.0 and the float nearest 0.1. -/
def cell (xx xy yy v h : EReal) : EReal :=
  ((Ideal.ofBits .f32 0xBF000000#32 * ((xx - Ideal.ofBits .f32 0x40000000#32 * xy) + yy)) * (v * v))
    * (Ideal.ofBits .f32 0x3F800000#32 + Ideal.ofBits .f32 0x3DCCCCCD#32 * h)

/-- The indicator of two equal 32-bit words, as the extended real 1 or 0. -/
def hot (a b : BitVec 32) : EReal := if a = b then 1 else 0

theorem hot_comm (a b : BitVec 32) : hot a b = hot b a := by
  unfold hot; by_cases h : a = b
  · rw [if_pos h, if_pos h.symm]
  · rw [if_neg h, if_neg (fun e => h e.symm)]

/-- The logit at row r and class c, of B rows and C classes of dimension 1024. -/
def logit {B C : Nat} (feat : (⟨2, ![B, 1024]⟩ : Shape).Idx → EReal) (lab : (⟨1, ![B]⟩ : Shape).Idx → BitVec 32)
    (means : (⟨2, ![C, 1024]⟩ : Shape).Idx → EReal) (var : (⟨1, ![C]⟩ : Shape).Idx → EReal) (r : Fin B) (c : Fin C) : EReal :=
  cell (∑ k : Fin 1024, feat (ix2 r k) * feat (ix2 r k)) (∑ k : Fin 1024, feat (ix2 r k) * means (ix2 c k))
    (∑ k : Fin 1024, means (ix2 c k) * means (ix2 c k)) (var (ix1 c)) (hot (lab (ix1 r)) (BitVec.ofNat 32 c.val))

/-- The whole array of logits. -/
def logits {B C : Nat} (feat : (⟨2, ![B, 1024]⟩ : Shape).Idx → EReal) (lab : (⟨1, ![B]⟩ : Shape).Idx → BitVec 32)
    (means : (⟨2, ![C, 1024]⟩ : Shape).Idx → EReal) (var : (⟨1, ![C]⟩ : Shape).Idx → EReal) :
    (⟨2, ![B, C]⟩ : Shape).Idx → EReal :=
  fun i => logit feat lab means var (i 0) (i 1)

theorem logits_apply {B C : Nat} (feat : (⟨2, ![B, 1024]⟩ : Shape).Idx → EReal) (lab : (⟨1, ![B]⟩ : Shape).Idx → BitVec 32)
    (means : (⟨2, ![C, 1024]⟩ : Shape).Idx → EReal) (var : (⟨1, ![C]⟩ : Shape).Idx → EReal) (r : Fin B) (c : Fin C) :
    logits feat lab means var (ix2 r c) = logit feat lab means var r c := rfl

end Cert.MarginLogits

end
-- ==== Proof.LibMatmulNN.lean ====
/-
  A plain matrix product read at an index, at the ideal values.

  For an M×K matrix A and a K×N matrix B, the product that contracts axis 1 of A with axis 0 of B (dimension numbers
  [1], [0], [0], [1], no batch axis: A · B) has at (a, b) the entry

      acc (a, b) + ∑ c < K, A (a, c) · B (c, b)

  on the extended reals, and just the sum when the accumulator is the zero splat. The index of the contraction is
  the one coordinate c; the operand indices at output (a, b) and contraction position c are (a, c) and (c, b).
-/
import Idealize.ShloMosaic.Lib.ValueIdx
import Idealize.ShloMosaic.PureOps.Ideal.Laws

noncomputable section

open scoped BigOperators

namespace Idealize.ShloMosaic.MatmulNN

open Idealize.ShloMosaic Idealize.ShloMosaic.ValueIdx

variable {M K N : Nat}

/-- The left operand's index at output (a, b) and contraction position c is (a, c). -/
theorem lhsIdx_plain (a : Fin M) (b : Fin N) (c : Fin K) :
    (DotDims.plain M K N).lhsIdx (ix2 a b) ((contrEquiv1 (DotDims.plain M K N) K rfl rfl).symm c) = ix2 a c := by
  have c2 := contrEquiv1_symm_val (DotDims.plain M K N) K rfl rfl c
  funext ax; apply Fin.ext
  match ax with
  | ⟨0, _⟩ => simp [DotDims.lhsIdx, DotDims.plain]; rfl
  | ⟨1, _⟩ => simp [DotDims.lhsIdx, DotDims.plain]; exact c2

/-- The right operand's index at output (a, b) and contraction position c is (c, b). -/
theorem rhsIdx_plain (a : Fin M) (b : Fin N) (c : Fin K) :
    (DotDims.plain M K N).rhsIdx (ix2 a b) ((contrEquiv1 (DotDims.plain M K N) K rfl rfl).symm c) = ix2 c b := by
  have c2 := contrEquiv1_symm_val (DotDims.plain M K N) K rfl rfl c
  funext ax; apply Fin.ext
  match ax with
  | ⟨0, _⟩ => simp [DotDims.rhsIdx, DotDims.plain]; exact c2
  | ⟨1, _⟩ => simp [DotDims.rhsIdx, DotDims.plain]; rfl

/-- A · B accumulated onto `acc`, at (a, b): the accumulator's entry plus the sum over the contracted coordinate. -/
theorem matmul_apply {φ₁ φ₂ : FTy} (prec : Option ContractPrecision)
    (A : FVec Ideal ⟨2, ![M, K]⟩ φ₁) (B : FVec Ideal ⟨2, ![K, N]⟩ φ₂) (acc : FVec Ideal ⟨2, ![M, N]⟩ .f32) (a : Fin M) (b : Fin N) :
    FloatOps.matmul (DotDims.plain M K N) prec A B acc (ix2 a b)
      = acc (ix2 a b) + ∑ c : Fin K, A (ix2 a c) * B (ix2 c b) := by
  rw [Ideal.matmul_apply, ← Equiv.sum_comp (contrEquiv1 (DotDims.plain M K N) K rfl rfl).symm]
  refine congrArg (acc (ix2 a b) + ·) (Finset.sum_congr rfl fun c _ => ?_)
  rw [lhsIdx_plain, rhsIdx_plain]

/-- A · B into the zero splat, at (a, b): the sum over the contracted coordinate. -/
theorem matmul_zero_apply {φ₁ φ₂ : FTy} (prec : Option ContractPrecision)
    (A : FVec Ideal ⟨2, ![M, K]⟩ φ₁) (B : FVec Ideal ⟨2, ![K, N]⟩ φ₂) (a : Fin M) (b : Fin N) :
    FloatOps.matmul (DotDims.plain M K N) prec A B (constant ⟨2, ![M, N]⟩ .f32 0x00000000#32) (ix2 a b)
      = ∑ c : Fin K, A (ix2 a c) * B (ix2 c b) := by
  rw [Ideal.matmul_constant_zero_apply, ← Equiv.sum_comp (contrEquiv1 (DotDims.plain M K N) K rfl rfl).symm]
  refine Finset.sum_congr rfl fun c _ => ?_
  rw [lhsIdx_plain, rhsIdx_plain]

end Idealize.ShloMosaic.MatmulNN

end
-- ==== Proof.LibColumn.lean ====
/-
  Column layouts read at an index, over any extents and any element type.

  A row statistic (a maximum, a sum) of an a × b matrix is a vector of a entries; to combine it with the
  matrix again it is first re-laid as an a × 1 column and then repeated along the second axis. Read at (i, j)
  the result is the vector's entry i, whatever j: the two lemmas below say so, one per step.
-/
import Idealize.ShloMosaic.Lib.ValueIdx
import Idealize.ShloMosaic.Lib.Pipeline.Value

namespace Cert.Lib.Column

open Idealize.ShloMosaic Idealize.ShloMosaic.ValueIdx

variable {α : Type}

/-- A vector of `a` entries cast to an `a × 1` column reads, at `(i, u)`, the vector's entry `i`: both indices sit at
    row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to `a × b` reads, at `(i, j)`, the column's entry `i`: the unit axis is read at `0`,
    the other axis at the result's own coordinate. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- The two steps together: a vector re-laid as a column and repeated along a second axis reads, at `(i, j)`, the
    vector's entry `i`. -/
theorem broadcastTo_shapeCast_column_apply {a b : ℕ} (x : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (i : Fin a) (j : Fin b) :
    broadcastTo ⟨2, ![a, b]⟩ (shapeCast ⟨2, ![a, 1]⟩ x hc) hb (ix2 i j) = x (ix1 i) := by
  rw [broadcastTo_a1_ab_apply, shapeCast_a_a1_apply]

end Cert.Lib.Column
-- ==== Proof.Payload.lean ====
/-
  The kernel body's stored value, read at one entry of the output block.

  The body computes, for a block of 512 feature rows x_p and a block of 1024 class means mu_q with scales v_q and the
  rows' labels, the array

      ( -1/2 * ( (|x_p|^2 - 2 * <x_p, mu_q>) + |mu_q|^2 ) ) * (v_q * v_q) * (1 + a * [label_p = 1024 j + q])

  where j is the number of the class block. Each of the five ingredients is one operation that is not entrywise — a
  matrix product with a transposed operand, two sums along a row re-laid as a column or as a row and repeated along the
  other axis, one row repeated along the batch, and a lane counter compared with a column of labels — and is read at
  (p, q) by its own lemma below; everything else is entrywise and reads through by definition. On the extended reals the
  changes of float format are the identity, so the product's operands are the entries themselves.
-/
import proofs.«122609_j12163347383010_1_alg».proof.Proof.Gen.KernelIdeal.Skeleton
import proofs.«122609_j12163347383010_1_alg».proof.Proof.Spec
import proofs.«122609_j12163347383010_1_alg».proof.Proof.LibMatmulNN
import proofs.«122609_j12163347383010_1_alg».proof.Proof.LibColumn
import Idealize.ShloMosaic.Lib.Pipeline.Value
import Idealize.ShloMosaic.Lib.ValueLayout

noncomputable section

open scoped BigOperators

namespace Cert.MarginLogits.Body

open Idealize.ShloMosaic Idealize.ShloMosaic.ValueIdx Cert.KernelIdeal Cert.KernelIdeal.Gen Cert.MarginLogits

/-- The 0/1 word of a comparison for equality, widened to 32 bits and read as a signed integer, is the indicator of
    the two words being equal. -/
theorem sitofp_cmpi_eq (a b : BitVec 32) :
    FloatOps.sitofp (F := Ideal) .f32 ((IntOp.cmpi .eq a b).setWidth 32) = hot a b := by
  show (((((IntOp.cmpi .eq a b).setWidth 32).toInt : ℤ) : ℝ) : EReal) = hot a b
  unfold hot IntOp.cmpi
  by_cases h : a = b
  · have hb : (a == b) = true := by rw [beq_iff_eq]; exact h
    rw [if_pos h]
    show ((((BitVec.ofBool (a == b)).setWidth 32).toInt : ℝ) : EReal) = 1
    rw [hb]
    have : ((BitVec.ofBool true).setWidth 32).toInt = 1 := by decide
    rw [this]; norm_num
  · have hb : (a == b) = false := by rw [beq_eq_false_iff_ne]; exact h
    rw [if_neg h]
    show ((((BitVec.ofBool (a == b)).setWidth 32).toInt : ℝ) : EReal) = 0
    rw [hb]
    have : ((BitVec.ofBool false).setWidth 32).toInt = 0 := by decide
    rw [this]; norm_num

/-- The class number of lane q in class block j, as a 32-bit word: the lane's word plus the block's word times 1024
    is the word of j * 1024 + q, for all naturals (both sides are taken modulo 2^32). -/
theorem word_class (j q : Nat) :
    IntOp.addi (BitVec.ofNat 32 q) (Scalar.muli (BitVec.ofNat 32 j) 1024#32) = BitVec.ofNat 32 (j * 1024 + q) := by
  show BitVec.ofNat 32 q + BitVec.ofNat 32 j * BitVec.ofNat 32 1024 = BitVec.ofNat 32 (j * 1024 + q)
  rw [← BitVec.ofNat_mul, ← BitVec.ofNat_add, Nat.add_comm]

/-- A sum over the second axis of an a × b matrix of extended reals, read at row r: the sum of the row's b entries.
    The accumulator's word is the zero word, the neutral element of the sum. -/
theorem rowSum_apply {a b : Nat} (src : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction (F := Ideal) .add [1] ⟨1, ![a]⟩ src 0x00000000#32 h hφ hacc (ix1 r) = ∑ k : Fin b, src (ix2 r k) := by
  refine (Ideal.multiReduction_add_single src 0x00000000#32 h hφ hacc (ix1 r)).trans ?_
  refine Finset.sum_congr rfl fun k _ => congrArg src ?_
  funext ax
  apply Fin.ext
  match ax with
  | ⟨0, _⟩ => rfl
  | ⟨1, _⟩ => rfl

/-- |x_p|^2: the row sums of x * x, re-laid as a column and repeated along the classes, read at (p, q). -/
theorem xx_apply (x0 : FVec Ideal S512x1024 .f32) (h : S512x1024.Reduces [1] S512)
    (hφ : FKind.Formats .f32) (hacc : (0x00000000#32 : BitVec 32) = FKind.add.neutral .f32 hφ)
    (hc : S512.ShapeCasts S512x1) (hb : S512x1.Broadcasts S512x1024) (p : Fin 512) (q : Fin 1024) :
    broadcastTo S512x1024 (shapeCast S512x1 (multiReduction (F := Ideal) .add [1] S512 (mulf x0 x0) 0x00000000#32 h hφ hacc) hc) hb (ix2 p q)
      = ∑ k : Fin 1024, x0 (ix2 p k) * x0 (ix2 p k) :=
  (Cert.Lib.Column.broadcastTo_shapeCast_column_apply _ hc hb p q).trans (rowSum_apply (mulf x0 x0) h hφ hacc p)

/-- |mu_q|^2: the row sums of mu * mu, re-laid as one row and repeated along the batch, read at (p, q). -/
theorem yy_apply (x1 : FVec Ideal S1024x1024 .f32) (h : S1024x1024.Reduces [1] S1024)
    (hφ : FKind.Formats .f32) (hacc : (0x00000000#32 : BitVec 32) = FKind.add.neutral .f32 hφ)
    (hs : S1024x1024.ShapeCasts S1024x1024)
    (hc : S1024.ShapeCasts S1x1024) (hb : S1x1024.Broadcasts S512x1024) (p : Fin 512) (q : Fin 1024) :
    broadcastTo S512x1024 (shapeCast S1x1024 (multiReduction (F := Ideal) .add [1] S1024
        (mulf (shapeCast S1024x1024 x1 hs) (shapeCast S1024x1024 x1 hs)) 0x00000000#32 h hφ hacc) hc) hb (ix2 p q)
      = ∑ k : Fin 1024, x1 (ix2 q k) * x1 (ix2 q k) := by
  rw [shapeCast_self x1 hs]
  exact (broadcastTo_1b_ab_apply _ hb p q).trans
    ((shapeCast_a_1a_apply _ hc (0 : Fin 1) q).trans (rowSum_apply (mulf x1 x1) h hφ hacc q))

/-- <x_p, mu_q>: the product of the rows with the transposed means into the zero accumulator, read at (p, q). The
    changes of format are the identity on the extended reals. -/
theorem xy_apply (x0 : FVec Ideal S512x1024 .f32) (x1 : FVec Ideal S1024x1024 .f32)
    (hs : S1024x1024.ShapeCasts S1024x1024) (hlt : FTy.bits .bf16 < FTy.bits .f32)
    (ht : S1024x1024.Transposes [1, 0] S1024x1024) (p : Fin 512) (q : Fin 1024) :
    matmul (F := Ideal) dot_S512x1024_S1024x1024_S512x1024_1_0_0_1_n_n none (truncf .bf16 x0 hlt)
        (transpose S1024x1024 [1, 0] (truncf .bf16 (shapeCast S1024x1024 x1 hs) hlt) ht)
        (constant S512x1024 .f32 0x00000000#32) (ix2 p q)
      = ∑ k : Fin 1024, x0 (ix2 p k) * x1 (ix2 q k) := by
  rw [shapeCast_self x1 hs]
  refine (MatmulNN.matmul_zero_apply (M := 512) (K := 1024) (N := 1024) none (truncf .bf16 x0 hlt)
    (transpose S1024x1024 [1, 0] (truncf .bf16 x1 hlt) ht) p q).trans ?_
  refine Finset.sum_congr rfl fun k _ => ?_
  rw [transpose_ix2_apply (truncf .bf16 x1 hlt) ht k q]
  rfl

/-- v_q * v_q: the squared scales, one row repeated along the batch, read at (p, q). -/
theorem vv_apply (x2 : FVec Ideal S1x1024 .f32) (hs : S1x1024.ShapeCasts S1x1024) (hb : S1x1024.Broadcasts S512x1024)
    (p : Fin 512) (q : Fin 1024) :
    broadcastTo S512x1024 (mulf (shapeCast S1x1024 x2 hs) (shapeCast S1x1024 x2 hs)) hb (ix2 p q)
      = x2 (ix2 (0 : Fin 1) q) * x2 (ix2 (0 : Fin 1) q) := by
  rw [shapeCast_self x2 hs]
  exact broadcastTo_1b_ab_apply _ hb p q

/-- [label_p = class of lane q in block j]: the lane number plus 1024 j compared with the row's label, the bit widened
    and converted, read at (p, q). -/
theorem hot_apply (j : Nat) (x3 : IVec S512x1 32) (hi : S512x1024.Iotas .tc 32 [1]) (hs : S512x1.ShapeCasts S512x1)
    (hb : S512x1.Broadcasts S512x1024) (hlt : 1 < 32) (p : Fin 512) (q : Fin 1024) :
    sitofp (F := Ideal) .f32 (extui 32 (cmpi .eq (addi (iota .tc S512x1024 32 [1] hi)
        (broadcast S512x1024 (Scalar.muli (BitVec.ofNat 32 j) 1024#32)))
        (broadcastTo S512x1024 (shapeCast S512x1 x3 hs) hb)) hlt) (ix2 p q)
      = hot (x3 (ix2 p (0 : Fin 1))) (BitVec.ofNat 32 (j * 1024 + q.val)) := by
  rw [shapeCast_self x3 hs]
  show FloatOps.sitofp (F := Ideal) .f32 ((IntOp.cmpi .eq (IntOp.addi (iota .tc S512x1024 32 [1] hi (ix2 p q))
      (Scalar.muli (BitVec.ofNat 32 j) 1024#32)) (broadcastTo S512x1024 x3 hb (ix2 p q))).setWidth 32) = _
  rw [iota_single_apply, Cert.Lib.Column.broadcastTo_a1_ab_apply x3 hb p q, sitofp_cmpi_eq]
  show hot (IntOp.addi (BitVec.ofNat 32 q.val) (Scalar.muli (BitVec.ofNat 32 j) 1024#32)) _ = _
  rw [word_class, hot_comm]

/-- The logit's grouping, with each of its five ingredients replaced by an equal one. -/
theorem cell_of {A B C D E xx xy yy v h : EReal} (hA : A = xx) (hB : B = xy) (hC : C = yy) (hD : D = v * v) (hE : E = h) :
    ((Ideal.ofBits .f32 0xBF000000#32 * ((A - Ideal.ofBits .f32 0x40000000#32 * B) + C)) * D)
        * (Ideal.ofBits .f32 0x3F800000#32 + Ideal.ofBits .f32 0x3DCCCCCD#32 * E) = cell xx xy yy v h := by
  subst hA hB hC hD hE
  rfl

theorem payload_apply (i : grid0.Coords) (x0 : Vec Ideal S512x1024 .f32) (x1 : Vec Ideal S1024x1024 .f32)
    (x2 : Vec Ideal S1x1024 .f32) (x3 : Vec Ideal S512x1 .i32) (p : Fin 512) (q : Fin 1024) :
    k0_pay1 (F := Ideal) i x0 x1 x2 x3 (ix2 p q)
      = cell (∑ k : Fin 1024, x0 (ix2 p k) * x0 (ix2 p k)) (∑ k : Fin 1024, x0 (ix2 p k) * x1 (ix2 q k))
          (∑ k : Fin 1024, x1 (ix2 q k) * x1 (ix2 q k)) (x2 (ix2 (0 : Fin 1) q))
          (hot (x3 (ix2 p (0 : Fin 1))) (BitVec.ofNat 32 ((i 1).val * 1024 + q.val))) := by
  unfold k0_pay1
  exact cell_of
    (xx_apply x0 _ _ _ _ _ p q)
    (xy_apply x0 x1 _ _ _ p q)
    (yy_apply x1 _ _ _ _ _ _ p q)
    (vv_apply x2 _ _ p q)
    (hot_apply (i 1).val x3 _ _ _ _ p q)

end Cert.MarginLogits.Body

end
-- ==== Proof.Blocks.lean ====
/-
  From blocks to the array: the kernel's output array, 4096 rows by 10240 padded classes, after the whole grid has run.

  Grid point (a, b), a < 8, b < 10, reads feature rows 512 a … 512 a + 511, padded classes 1024 b … 1024 b + 1023 and
  writes the 512 × 1024 block of logits of those rows against those classes. The 80 blocks tile the array, so the
  array ends holding, at every (r, c), the logit of row r against padded class c.
-/
import proofs.«122609_j12163347383010_1_alg».proof.Proof.KernelIdealFrame
import proofs.«122609_j12163347383010_1_alg».proof.Proof.Payload
import proofs.«122609_j12163347383010_1_alg».proof.Proof.Spec
import Idealize.ShloMosaic.Lib.Pipeline.Value
import Idealize.ShloMosaic.Lib.ValueIdx

set_option maxRecDepth 16384

noncomputable section

open scoped BigOperators

namespace Cert.MarginLogits.Blocks

open Idealize.ShloMosaic Idealize.ShloMosaic.TcCoe Idealize.ShloMosaic.Tactic Idealize.ShloMosaic.ValueIdx
open Idealize.SL.Sem
open Idealize.ShloMosaic.Pipeline (Dat Cfg Window)
open Cert.KernelIdeal Cert.KernelIdeal.Gen Cert.KernelIdeal.GenP Cert.MarginLogits

/-- A row of 10240 entries read as a vector. -/
def rowVec (A2 : S1x10240.Idx → EReal) : (⟨1, ![10240]⟩ : Shape).Idx → EReal := fun j => A2 (ix2 (0 : Fin 1) (j 0))
/-- A column of 4096 words read as a vector. -/
def colVec (A3 : S4096x1.Idx → BitVec 32) : (⟨1, ![4096]⟩ : Shape).Idx → BitVec 32 := fun j => A3 (ix2 (j 0) (0 : Fin 1))

/-- The padded array of logits: row r against padded class c, of the features, the padded means, the padded row of
    scales and the column of labels. -/
def padded (A0 : S4096x1024.Idx → EReal) (A1 : S10240x1024.Idx → EReal) (A2 : S1x10240.Idx → EReal)
    (A3 : S4096x1.Idx → BitVec 32) : S4096x10240.Idx → EReal :=
  logits A0 (colVec A3) A1 (rowVec A2)

/-- One entry of one block. If the four loaded blocks are rows 512 a + p of the features, classes 1024 b + q of the
    padded means and scales, and rows 512 a + p of the labels, and the body is told it is at class block b, then the
    value it stores at (p, q) is the padded logit at (512 a + p, 1024 b + q). -/
theorem block_entry (A0 : S4096x1024.Idx → EReal) (A1 : S10240x1024.Idx → EReal) (A2 : S1x10240.Idx → EReal)
    (A3 : S4096x1.Idx → BitVec 32) (a : Fin 8) (b : Fin 10) (gc : grid0.Coords) (hgc : (gc 1).val = b.val)
    (x0 : Vec Ideal S512x1024 .f32) (x1 : Vec Ideal S1024x1024 .f32) (x2 : Vec Ideal S1x1024 .f32) (x3 : Vec Ideal S512x1 .i32)
    (h0 : ∀ (p : Fin 512) (k : Fin 1024), x0 (ix2 p k) = A0 (ix2 (⟨a.val * 512 + p.val, by omega⟩ : Fin 4096) k))
    (h1 : ∀ (q : Fin 1024) (k : Fin 1024), x1 (ix2 q k) = A1 (ix2 (⟨b.val * 1024 + q.val, by omega⟩ : Fin 10240) k))
    (h2 : ∀ q : Fin 1024, x2 (ix2 (0 : Fin 1) q) = A2 (ix2 (0 : Fin 1) (⟨b.val * 1024 + q.val, by omega⟩ : Fin 10240)))
    (h3 : ∀ p : Fin 512, x3 (ix2 p (0 : Fin 1)) = A3 (ix2 (⟨a.val * 512 + p.val, by omega⟩ : Fin 4096) (0 : Fin 1)))
    (p : Fin 512) (q : Fin 1024) :
    k0_pay1 (F := Ideal) gc x0 x1 x2 x3 (ix2 p q)
      = padded A0 A1 A2 A3 (ix2 (⟨a.val * 512 + p.val, by omega⟩ : Fin 4096) (⟨b.val * 1024 + q.val, by omega⟩ : Fin 10240)) := by
  rw [Body.payload_apply, hgc]
  unfold padded
  rw [logits_apply]
  unfold logit colVec rowVec
  simp only [h0, h1, h2, h3]

/-- The printed index maps, decided over the 80 grid points: the features and the labels move with the output's row
    block, the padded means and scales with its class block, and the body's class-block number is the output's. -/
theorem idx_facts : ∀ t : Fin cfg0.N,
    win0_0.index t (0 : Fin 2) = win0_4.index t (0 : Fin 2) ∧ win0_0.index t (1 : Fin 2) = 0
    ∧ win0_1.index t (0 : Fin 2) = win0_4.index t (1 : Fin 2) ∧ win0_1.index t (1 : Fin 2) = 0
    ∧ win0_2.index t (0 : Fin 2) = 0 ∧ win0_2.index t (1 : Fin 2) = win0_4.index t (1 : Fin 2)
    ∧ win0_3.index t (0 : Fin 2) = win0_4.index t (0 : Fin 2) ∧ win0_3.index t (1 : Fin 2) = 0
    ∧ (grid0.coords t (1 : Fin 2)).val = win0_4.index t (1 : Fin 2)
    ∧ win0_4.index t (0 : Fin 2) ≤ 7 ∧ win0_4.index t (1 : Fin 2) ≤ 9 :=
  (by decide +kernel : ∀ t : Fin grid0.N, _)

/-- Every block of the array is some point's. -/
theorem idx_onto : ∀ (a : Fin 8) (b : Fin 10), ∃ t : Fin cfg0.N, win0_4.index t = ![a.val, b.val] :=
  (by decide +kernel : ∀ (a : Fin 8) (b : Fin 10), ∃ t : Fin grid0.N, win0_4.index t = ![a.val, b.val])

variable (m : (ℓ : Loc nD τ sig) → Buf (Elt Ideal) ℓ)

theorem hz : (![0, 0] : Fin 2 → Nat) = fun _ => 0 := funext fun a => by fin_cases a <;> rfl

/-- WHAT POINT t WRITES BACK is block t of the padded logits of the arrays as the region finds them. -/
theorem flushed_eq (c : Dev nD) (t : Fin cfg0.N) :
    (dats m 0 c).flushed 4 t = ((cfg0.win 4).blk t).view.read (Elt Ideal)
      (padded (V m c main_arg0) (V m c main_v0) (V m c main_v2) (V m c main_v3)) := by
  show (cfg0.win 4).cut (grid0.coords t) ((dats m 0 c).after 4 t) = _
  rw [after0_4]
  unfold out0_4
  rw [View.canon_unit_zero hz]
  simp only [View.ld_unit_zero (S := S512x1024) hz, View.ld_unit_zero (S := S1024x1024) hz,
    View.ld_unit_zero (S := S1x1024) hz, View.ld_unit_zero (S := S512x1) hz]
  obtain ⟨e00, e01, e10, e11, e20, e21, e30, e31, eg, ba, bb⟩ := idx_facts t
  funext y
  have hy0 : (y 0).val < 512 := (y 0).isLt
  have hy1 : (y 1).val < 1024 := (y 1).isLt
  have hy : y = ix2 (⟨(y 0).val, hy0⟩ : Fin 512) (⟨(y 1).val, hy1⟩ : Fin 1024) :=
    funext fun d => by match d with | ⟨0, _⟩ => rfl | ⟨1, _⟩ => rfl
  show k0_pay1 (F := Ideal) (grid0.coords t) (iblk m c 0 t) (iblk m c 1 t) (iblk m c 2 t) (iblk m c 3 t) y
    = padded (V m c main_arg0) (V m c main_v0) (V m c main_v2) (V m c main_v3) (((cfg0.win 4).blk t).view.emb y)
  have hemb : ((cfg0.win 4).blk t).view.emb y
      = ix2 (⟨win0_4.index t (0 : Fin 2) * 512 + (y 0).val, by omega⟩ : Fin 4096)
          (⟨win0_4.index t (1 : Fin 2) * 1024 + (y 1).val, by omega⟩ : Fin 10240) := by
    funext d; apply Fin.ext
    match d with
    | ⟨0, _⟩ => show win0_4.index t (0 : Fin 2) * 512 + 1 * (y 0).val = win0_4.index t (0 : Fin 2) * 512 + (y 0).val; omega
    | ⟨1, _⟩ => show win0_4.index t (1 : Fin 2) * 1024 + 1 * (y 1).val = win0_4.index t (1 : Fin 2) * 1024 + (y 1).val; omega
  rw [hemb]
  refine (congrArg (k0_pay1 (F := Ideal) (grid0.coords t) (iblk m c 0 t) (iblk m c 1 t) (iblk m c 2 t) (iblk m c 3 t)) hy).trans ?_
  exact block_entry (V m c main_arg0) (V m c main_v0) (V m c main_v2) (V m c main_v3)
    (⟨win0_4.index t (0 : Fin 2), by omega⟩ : Fin 8) (⟨win0_4.index t (1 : Fin 2), by omega⟩ : Fin 10) (grid0.coords t) eg
    (iblk m c 0 t) (iblk m c 1 t) (iblk m c 2 t) (iblk m c 3 t)
    (fun p k => by
      show V m c main_arg0 (((cfg0.win 0).blk t).view.emb (ix2 p k)) = _
      refine congrArg (V m c main_arg0) (funext fun d => Fin.ext ?_)
      match d with
      | ⟨0, _⟩ => show win0_0.index t (0 : Fin 2) * 512 + 1 * p.val = win0_4.index t (0 : Fin 2) * 512 + p.val; omega
      | ⟨1, _⟩ => show win0_0.index t (1 : Fin 2) * 1024 + 1 * k.val = k.val; omega)
    (fun q k => by
      show V m c main_v0 (((cfg0.win 1).blk t).view.emb (ix2 q k)) = _
      refine congrArg (V m c main_v0) (funext fun d => Fin.ext ?_)
      match d with
      | ⟨0, _⟩ => show win0_1.index t (0 : Fin 2) * 1024 + 1 * q.val = win0_4.index t (1 : Fin 2) * 1024 + q.val; omega
      | ⟨1, _⟩ => show win0_1.index t (1 : Fin 2) * 1024 + 1 * k.val = k.val; omega)
    (fun q => by
      show V m c main_v2 (((cfg0.win 2).blk t).view.emb (ix2 (0 : Fin 1) q)) = _
      refine congrArg (V m c main_v2) (funext fun d => Fin.ext ?_)
      match d with
      | ⟨0, _⟩ => show win0_2.index t (0 : Fin 2) * 1 + 1 * 0 = 0; omega
      | ⟨1, _⟩ => show win0_2.index t (1 : Fin 2) * 1024 + 1 * q.val = win0_4.index t (1 : Fin 2) * 1024 + q.val; omega)
    (fun p => by
      show V m c main_v3 (((cfg0.win 3).blk t).view.emb (ix2 p (0 : Fin 1))) = _
      refine congrArg (V m c main_v3) (funext fun d => Fin.ext ?_)
      match d with
      | ⟨0, _⟩ => show win0_3.index t (0 : Fin 2) * 512 + 1 * p.val = win0_4.index t (0 : Fin 2) * 512 + p.val; omega
      | ⟨1, _⟩ => show win0_3.index t (1 : Fin 2) * 1 + 1 * 0 = 0; omega)
    ⟨(y 0).val, hy0⟩ ⟨(y 1).val, hy1⟩

/-- An index of the array is in point t's block iff each coordinate is in the block's range on its axis. -/
theorem mem_blk (t : Fin cfg0.N) (i : S4096x10240.Idx) :
    i ∈ ((cfg0.win 4).blk t).view.set ↔ ∀ a : Fin 2, win0_4.index t a * S512x1024.size a ≤ (i a).val
      ∧ (i a).val < win0_4.index t a * S512x1024.size a + S512x1024.size a := by
  show i ∈ ((View.whole main_v4).slice (win0_4.rect t)).set ↔ _
  rw [View.set_slice_whole, Rect.mem_set_unit]
  exact Iff.rfl

/-- The 80 blocks cover the array: (r, c) is in the block of the point whose row block is r / 512 and whose class block
    is c / 1024. -/
theorem cover (i : S4096x10240.Idx) :
    ∃ t : Fin cfg0.N, (cfg0.win 4).flush t = true ∧ i ∈ ((cfg0.win 4).blk t).view.set := by
  have hi0 : (i 0).val < 4096 := (i 0).isLt
  have hi1 : (i 1).val < 10240 := (i 1).isLt
  obtain ⟨t, ht⟩ := idx_onto ⟨(i 0).val / 512, by omega⟩ ⟨(i 1).val / 1024, by omega⟩
  have q0 : win0_4.index t (0 : Fin 2) = (i 0).val / 512 := congrFun ht 0
  have q1 : win0_4.index t (1 : Fin 2) = (i 1).val / 1024 := congrFun ht 1
  refine ⟨t, flush0_4 t, ?_⟩
  rw [mem_blk]
  intro a
  match a with
  | ⟨0, _⟩ =>
    show win0_4.index t (0 : Fin 2) * 512 ≤ (i 0).val ∧ (i 0).val < win0_4.index t (0 : Fin 2) * 512 + 512
    omega
  | ⟨1, _⟩ =>
    show win0_4.index t (1 : Fin 2) * 1024 ≤ (i 1).val ∧ (i 1).val < win0_4.index t (1 : Fin 2) * 1024 + 1024
    omega

/-- THE ARRAY after the run: the padded logits of the arrays as the region finds them, at every index. -/
theorem final (c : Dev nD) :
    (dats m 0 c).arrAt 4 cfg0.N = padded (V m c main_arg0) (V m c main_v0) (V m c main_v2) (V m c main_v3) :=
  (dats m 0 c).arrAt_eq_of_cover 4 _ (fun t _ => flushed_eq m c t) cover

end Cert.MarginLogits.Blocks

end
-- ==== Proof.Entry.lean ====
/-
  The arrays the kernel's windows are cut from, as the host lines before the call leave them.

  The class means and the class scales are padded with zeros from 10000 to 10240 classes (ten blocks of 1024), the
  padded scales re-laid as one row, and the labels re-laid as one column. Below class 10000 the padded arrays are the
  arguments themselves; the padding is never read by a logit the program returns.
-/
import proofs.«122609_j12163347383010_1_alg».proof.Proof.KernelIdealFrame
import Idealize.ShloMosaic.Lib.KernelVsHost
import Idealize.ShloMosaic.Lib.StableHlo.Run
import Idealize.ShloMosaic.Lib.ValueIdx

noncomputable section

namespace Cert.MarginLogits.Entry

open Idealize.ShloMosaic Idealize.ShloMosaic.TcCoe Idealize.ShloMosaic.Tactic Idealize.ShloMosaic.ValueIdx
open Idealize.SL.Sem Idealize.ShloMosaic.StableHlo
open Cert.KernelIdeal Cert.KernelIdeal.Gen Cert.KernelIdeal.GenP

variable (m : (ℓ : Loc nD τ sig) → Buf (Elt Ideal) ℓ)

/-- The means window's array: the class means padded with 240 rows of the padding value. -/
theorem means_padded (c : Dev nD) :
    (V m c main_v0 : S10240x1024.Idx → EReal)
      = pad S10240x1024 ![0, 0] ![240, 0] ![0, 0] (m ((c : Thread nD τ).loc main_arg2))
          (sitofp (F := Ideal) .f32 (constantI S_ 32 0#32)) pads_S10000x1024_S10240x1024_02400_000 h_S_ := by
  dsimp only [V, V0]
  simp only [hostOps0, hostOps0_1, hostOps0_2, hostOps0_3, hostOps0_4, List.flatten_cons, List.flatten_nil, List.append_nil,
    List.cons_append, List.nil_append]
  after_results
  rfl

/-- The scales window's array: the class scales padded with 240 entries of the padding value, re-laid as one row. -/
theorem scales_padded (c : Dev nD) :
    (V m c main_v2 : S1x10240.Idx → EReal)
      = shapeCast S1x10240 (pad S10240 ![0] ![240] ![0] (m ((c : Thread nD τ).loc main_arg3))
          (sitofp (F := Ideal) .f32 (constantI S_ 32 0#32)) pads_S10000_S10240_02400 h_S_) shapeCasts_S10240_S1x10240 := by
  dsimp only [V, V0]
  simp only [hostOps0, hostOps0_1, hostOps0_2, hostOps0_3, hostOps0_4, List.flatten_cons, List.flatten_nil, List.append_nil,
    List.cons_append, List.nil_append]
  after_results
  rfl

/-- The labels window's array: the labels re-laid as one column. -/
theorem labels_column (c : Dev nD) :
    (V m c main_v3 : S4096x1.Idx → BitVec 32)
      = shapeCast S4096x1 (m ((c : Thread nD τ).loc main_arg1)) shapeCasts_S4096_S4096x1 := by
  dsimp only [V, V0]
  simp only [hostOps0, hostOps0_1, hostOps0_2, hostOps0_3, hostOps0_4, List.flatten_cons, List.flatten_nil, List.append_nil,
    List.cons_append, List.nil_append]
  after_results
  rfl

/-- Below class 10000 the padded means are the means. -/
theorem means_padded_apply (c : Dev nD) (j : Fin 10000) (k : Fin 1024) :
    V m c main_v0 (ix2 (⟨j.val, by omega⟩ : Fin 10240) k) = m ((c : Thread nD τ).loc main_arg2) (ix2 j k) := by
  rw [means_padded]
  exact pad_apply_of_inside _ _ _ _ _ _ _ _ (ix2 j k) (fun a => match a with
    | ⟨0, _⟩ => by show j.val = 0 + j.val * (0 + 1); omega
    | ⟨1, _⟩ => by show k.val = 0 + k.val * (0 + 1); omega)

/-- Below class 10000 the padded row of scales is the scales. -/
theorem scales_padded_apply (c : Dev nD) (j : Fin 10000) :
    V m c main_v2 (ix2 (0 : Fin 1) (⟨j.val, by omega⟩ : Fin 10240)) = m ((c : Thread nD τ).loc main_arg3) (ix1 j) := by
  rw [scales_padded]
  refine (shapeCast_apply _ _ _ (ix1 (⟨j.val, by omega⟩ : Fin 10240)) (by
    rw [Shape.rowMajor_val_one, Shape.rowMajor_val_two]
    show j.val = 0 * 10240 + j.val
    omega)).trans ?_
  exact pad_apply_of_inside _ _ _ _ _ _ _ _ (ix1 j) (fun a => match a with
    | ⟨0, _⟩ => by show j.val = 0 + j.val * (0 + 1); omega)

/-- The column of labels holds row r's label at (r, 0). -/
theorem labels_column_apply (c : Dev nD) (r : Fin 4096) :
    V m c main_v3 (ix2 r (0 : Fin 1)) = m ((c : Thread nD τ).loc main_arg1) (ix1 r) := by
  rw [labels_column]
  exact shapeCast_apply _ _ _ (ix1 r) (by
    rw [Shape.rowMajor_val_one, Shape.rowMajor_val_two]
    show r.val = r.val * 1 + 0
    omega)

end Cert.MarginLogits.Entry

end
-- ==== Proof.KernelTail.lean ====
/-
  The host lines after the call, read back: the returned logits are the kernel's output array without its 240 padded
  classes, and the regularisation term is one function of the features, the labels and the class means — the same
  function in the kernel's program and in the reference, where the same host lines compute it.
-/
import proofs.«122609_j12163347383010_1_alg».proof.Proof.KernelIdealFrame
import proofs.«122609_j12163347383010_1_alg».proof.Proof.Gen.ReferenceIdeal.Read
import Idealize.ShloMosaic.Lib.Pipeline.Value
import Idealize.ShloMosaic.Lib.StableHlo.Run

noncomputable section

namespace Cert.MarginLogits.Tail

open Idealize.ShloMosaic Idealize.ShloMosaic.TcCoe Idealize.ShloMosaic.Tactic Idealize.ShloMosaic.ValueIdx
open Idealize.SL.Sem Idealize.ShloMosaic.StableHlo
open Idealize.ShloMosaic.Pipeline (Dat Cfg Window)
open Cert.KernelIdeal Cert.KernelIdeal.Gen Cert.KernelIdeal.GenP

/-- The regularisation term: 0.01 * (0.5 * the sum over every entry of (x_r - mu_{label_r})^2) / 4096, the row of means
    picked by the label (a negative label counted from the end), as the host lines spell it. -/
def lossTerm (x0 : S4096x1024.Idx → EReal) (x1 : S4096.Idx → BitVec 32) (x2 : S10000x1024.Idx → EReal) : S_.Idx → EReal :=
  Host.divf (F := Ideal) (mulf (constant (F := Ideal) S_ .f32 0x3C23D70A#32) (mulf (Host.reduceAdd (F := Ideal) (mulf (subf x0 (Host.gather gather_S10000x1024_S4096x1_S4096x1024_1_0_n_n_0_1_11024 x2 (broadcastInDim S4096x1 ![0] bcast_S4096_S4096x1_0 (select (cmpi .slt x1 (broadcastInDim S4096 ![] bcast_S_S4096 (constantI S_ 32 0#32))) (addi x1 (broadcastInDim S4096 ![] bcast_S_S4096 (constantI S_ 32 10000#32))) x1)))) (subf x0 (Host.gather gather_S10000x1024_S4096x1_S4096x1024_1_0_n_n_0_1_11024 x2 (broadcastInDim S4096x1 ![0] bcast_S4096_S4096x1_0 (select (cmpi .slt x1 (broadcastInDim S4096 ![] bcast_S_S4096 (constantI S_ 32 0#32))) (addi x1 (broadcastInDim S4096 ![] bcast_S_S4096 (constantI S_ 32 10000#32))) x1))))) (constant (F := Ideal) S_ .f32 0x00000000#32) reducesTo_S4096x1024_S_d0_1 h_S_) (constant (F := Ideal) S_ .f32 0x3F000000#32))) (constant (F := Ideal) S_ .f32 0x45800000#32)

variable (m : (ℓ : Loc nD τ sig) → Buf (Elt Ideal) ℓ)

/-- The first result: the output array after the run, cut back to the 10000 classes. -/
theorem tail_logits (c : Dev nD) :
    (Pipeline.afterTail₀ cfgs (dats m) 0 (V0 m) [hostOps1] c main_v5 : S4096x10000.Idx → EReal)
      = extractStridedSlice S4096x10000 ![0, 0] ((dats m 0 c).arrAt 4 cfg0.N) slices_S4096x10240_S4096x10000_0_0 := by
  unfold Pipeline.afterTail₀
  show StableHlo.after hostOps1 _ (Proc.devRef .tc main_v5) = _
  after_results
  -- the slice reads the call's result, which is the output window's array as the last grid point leaves it
  exact congrArg (fun x => extractStridedSlice S4096x10000 ![0, 0] x slices_S4096x10240_S4096x10000_0_0)
    (Pipeline.withArrays_arr spec0 launch0.win.arr_inj c (V0 m c) (fun w => (dats m 0 c).arrAt w cfg0.N) 4)

/-- The second result: the regularisation term of the arguments as launched. -/
theorem tail_loss (c : Dev nD) :
    (Pipeline.afterTail₀ cfgs (dats m) 0 (V0 m) [hostOps1] c main_v18 : S_.Idx → EReal)
      = lossTerm (m ((c : Thread nD τ).loc main_arg0)) (m ((c : Thread nD τ).loc main_arg1)) (m ((c : Thread nD τ).loc main_arg2)) := by
  unfold Pipeline.afterTail₀
  show StableHlo.after hostOps1 _ (Proc.devRef .tc main_v18) = _
  after_results
  -- the features are an input window's array: the run never writes it, and no earlier host line does
  have h0 : Pipeline.withArrays (cfgs 0).spec c (V0 m c) (fun w => (dats m 0 c).arrAt w (cfgs 0).N) (Proc.devRef .tc main_arg0)
      = m ((c : Thread nD τ).loc main_arg0) :=
    (Pipeline.withArrays_arr spec0 launch0.win.arr_inj c (V0 m c) (fun w => (dats m 0 c).arrAt w cfg0.N) 0).trans
      (((dats m 0 c).arrAt_in 0 rfl _).trans ((A_eq m c 0).trans (V_main_arg0 m c)))
  -- the labels and the class means are no window's array, so the run leaves them, and no earlier host line writes them
  have h1 : Pipeline.withArrays (cfgs 0).spec c (V0 m c) (fun w => (dats m 0 c).arrAt w (cfgs 0).N) (Proc.devRef .tc main_arg1)
      = m ((c : Thread nD τ).loc main_arg1) :=
    (Pipeline.withArrays_of_ne _ c (V0 m c) _ main_arg1 (by exact (by decide : ∀ w, Pipeline.arrRef spec0 w ≠ main_arg1))).trans
      (V_main_arg1 m c)
  have h2 : Pipeline.withArrays (cfgs 0).spec c (V0 m c) (fun w => (dats m 0 c).arrAt w (cfgs 0).N) (Proc.devRef .tc main_arg2)
      = m ((c : Thread nD τ).loc main_arg2) :=
    (Pipeline.withArrays_of_ne _ c (V0 m c) _ main_arg2 (by exact (by decide : ∀ w, Pipeline.arrRef spec0 w ≠ main_arg2))).trans
      (V_main_arg2 m c)
  -- what is left is the same host lines over the three arrays
  rw [h0, h1, h2]
  rfl

/-- The reference's second result is the same function of its arguments. -/
theorem ref_loss (x0 : (⟨Cert.ReferenceIdeal.S4096x1024, .f32⟩ : BufTy).Contents (Elt Ideal))
    (x1 : (⟨Cert.ReferenceIdeal.S4096, .i32⟩ : BufTy).Contents (Elt Ideal))
    (x2 : (⟨Cert.ReferenceIdeal.S10000x1024, .f32⟩ : BufTy).Contents (Elt Ideal)) :
    Cert.ReferenceIdeal.Read.val_main_v38 (F := Ideal) x0 x1 x2 = lossTerm x0 x1 x2 := by
  -- the reference's lines composed into one term are, shape by shape and fact by fact, the same term
  rw [← Cert.ReferenceIdeal.Read.val_main_v38_eq]
  rfl

end Cert.MarginLogits.Tail

end
-- ==== Proof.KernelValue.lean ====
/-
  The kernel's program, run: its first result is the array of logits of the four arguments, its second the
  regularisation term, and the arguments end as launched.

  The call leaves the 4096 × 10240 padded logits (one block per grid point, the blocks tiling the array); the host
  line after it keeps classes 0 … 9999, where the zero-padded means and scales are the arguments' own entries, so what
  is returned is the logits of the arguments: the padding was only ever read by entries that are cut away.
-/
import proofs.«122609_j12163347383010_1_alg».proof.Proof.KernelIdealFrame
import proofs.«122609_j12163347383010_1_alg».proof.Proof.Blocks
import proofs.«122609_j12163347383010_1_alg».proof.Proof.Entry
import proofs.«122609_j12163347383010_1_alg».proof.Proof.KernelTail
import proofs.«122609_j12163347383010_1_alg».proof.Proof.Spec
import Idealize.ShloMosaic.Lib.Pipeline.Value
import Idealize.ShloMosaic.Lib.ValueIdx

noncomputable section

open scoped BigOperators

namespace Cert.MarginLogits.Kernel

open Idealize.ShloMosaic Idealize.ShloMosaic.TcCoe Idealize.ShloMosaic.Tactic Idealize.ShloMosaic.ValueIdx
open Idealize.SL.Sem
open Idealize.ShloMosaic.Pipeline (Dat Cfg Window)
open Cert.KernelIdeal Cert.KernelIdeal.Gen Cert.KernelIdeal.GenP Cert.MarginLogits

variable (m : (ℓ : Loc nD τ sig) → Buf (Elt Ideal) ℓ) (ρ : Dev nD → PrngReg)

/-- Cut back to the 10000 classes, the padded logits are the logits of the unpadded arrays, whenever below class 10000
    every padded array is the array it pads: each retained entry reads the padded arrays only below class 10000. -/
theorem slice_padded_of (A0 : S4096x1024.Idx → EReal) (A1 : S10240x1024.Idx → EReal) (A2 : S1x10240.Idx → EReal)
    (A3 : S4096x1.Idx → BitVec 32) (x0 : S4096x1024.Idx → EReal) (x1 : S4096.Idx → BitVec 32)
    (x2 : S10000x1024.Idx → EReal) (x3 : S10000.Idx → EReal) (h0 : A0 = x0)
    (h1 : ∀ (j : Fin 10000) (k : Fin 1024), A1 (ix2 (⟨j.val, by omega⟩ : Fin 10240) k) = x2 (ix2 j k))
    (h2 : ∀ j : Fin 10000, A2 (ix2 (0 : Fin 1) (⟨j.val, by omega⟩ : Fin 10240)) = x3 (ix1 j))
    (h3 : ∀ r : Fin 4096, A3 (ix2 r (0 : Fin 1)) = x1 (ix1 r)) :
    extractStridedSlice S4096x10000 ![0, 0] (Blocks.padded A0 A1 A2 A3) slices_S4096x10240_S4096x10000_0_0
      = logits x0 x1 x2 x3 := by
  subst h0
  funext i
  obtain ⟨r, j, rfl⟩ : ∃ (r : Fin 4096) (j : Fin 10000), i = ix2 r j := ⟨i 0, i 1, eq_ix2 i⟩
  refine (extractStridedSlice_apply _ _ _ _ (ix2 r (⟨j.val, by omega⟩ : Fin 10240)) (fun a => match a with
    | ⟨0, _⟩ => by show r.val = 0 + r.val; omega
    | ⟨1, _⟩ => by show j.val = 0 + j.val; omega)).trans ?_
  unfold Blocks.padded
  rw [logits_apply, logits_apply]
  show cell (∑ k : Fin 1024, A0 (ix2 r k) * A0 (ix2 r k))
      (∑ k : Fin 1024, A0 (ix2 r k) * A1 (ix2 (⟨j.val, by omega⟩ : Fin 10240) k))
      (∑ k : Fin 1024, A1 (ix2 (⟨j.val, by omega⟩ : Fin 10240) k) * A1 (ix2 (⟨j.val, by omega⟩ : Fin 10240) k))
      (A2 (ix2 (0 : Fin 1) (⟨j.val, by omega⟩ : Fin 10240)))
      (hot (A3 (ix2 r (0 : Fin 1))) (BitVec.ofNat 32 j.val))
    = logit A0 x1 x2 x3 r j
  rw [h2 j, h3 r]
  simp only [h1 j]
  rfl

/-- The first result of the kernel's program: the logits of the arguments as launched. -/
theorem logits_result (c : Dev nD) :
    (Pipeline.afterTail₀ cfgs (dats m) 0 (V0 m) [hostOps1] c main_v5 : S4096x10000.Idx → EReal)
      = logits (m ((c : Thread nD τ).loc main_arg0)) (m ((c : Thread nD τ).loc main_arg1))
          (m ((c : Thread nD τ).loc main_arg2)) (m ((c : Thread nD τ).loc main_arg3)) := by
  rw [Tail.tail_logits m c, Blocks.final m c]
  exact slice_padded_of _ _ _ _ _ _ _ _ (V_main_arg0 m c) (Entry.means_padded_apply m c) (Entry.scales_padded_apply m c)
    (Entry.labels_column_apply m c)

/-- THE RUN, READ: every weakly fair execution of the kernel's program ends with its first result at the logits of
    the arguments, its second at the regularisation term, and the four arguments as launched. -/
theorem run : θ_run defs (onTc (τ := τ) (main (F := Ideal))) ⟨m, fun _ => 0, ρ⟩ (fun r => ∀ c : Dev nD,
      r.2.mem ((c.tc : Thread nD τ).loc main_v5) = logits (m ((c : Thread nD τ).loc main_arg0)) (m ((c : Thread nD τ).loc main_arg1))
          (m ((c : Thread nD τ).loc main_arg2)) (m ((c : Thread nD τ).loc main_arg3))
      ∧ r.2.mem ((c.tc : Thread nD τ).loc main_v18) = Tail.lossTerm (m ((c : Thread nD τ).loc main_arg0))
          (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v5 (Pipeline.mem_restRefs_of main_v5 (by decide) (by decide))).trans (logits_result m c),
      ((h c).2 main_v18 (Pipeline.mem_restRefs_of main_v18 (by decide) (by decide))).trans (Tail.tail_loss m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.MarginLogits.Kernel

end
-- ==== Proof.RefLogits.lean ====
/-
  The reference program's first result is the array of logits: read one operation at a time, at row r and class c it is
  the logit of the four argument arrays.
-/
import proofs.«122609_j12163347383010_1_alg».proof.Proof.Gen.ReferenceIdeal.Read
import proofs.«122609_j12163347383010_1_alg».proof.Proof.Spec

noncomputable section

open scoped BigOperators

namespace Cert.MarginLogits.Ref

open Idealize.ShloMosaic Idealize.ShloMosaic.ValueIdx Cert.ReferenceIdeal Cert.ReferenceIdeal.Read Cert.MarginLogits

/-- Converting the one-bit result of an equality test of two 32-bit words to a float gives the indicator of the two
    words being equal: the bit is 1, of unsigned value 1, when they are equal and 0 otherwise. -/
theorem uitofp_cmpi_eq (a b : BitVec 32) :
    FloatOps.uitofp (F := Ideal) .f32 (IntOp.cmpi .eq a b) = hot a b := by
  unfold hot
  by_cases h : a = b
  · subst h
    rw [if_pos rfl]
    show (((IntOp.cmpi .eq a a).toNat : ℝ) : EReal) = 1
    simp [IntOp.cmpi]
  · rw [if_neg h]
    show (((IntOp.cmpi .eq a b).toNat : ℝ) : EReal) = 0
    simp [IntOp.cmpi, h]

/-- The reference program's first result, read one operation at a time. At row r and class c the product of three
    factors is left: -1/2 times ((|x_r|^2 - 2 <x_r, mu_c>) + |mu_c|^2), the squared scale of class c, and 1 plus a tenth
    of the indicator that the row's label is c. Each row sum starts from the float zero, which is the real 0; the
    matrix product reads the transposed means at (k, c), which is the means at (c, k); every broadcast reads its
    operand at the coordinates it keeps. -/
theorem ref_logits (x0 : (⟨S4096x1024, .f32⟩ : BufTy).Contents (Elt Ideal)) (x1 : (⟨S4096, .i32⟩ : BufTy).Contents (Elt Ideal))
    (x2 : (⟨S10000x1024, .f32⟩ : BufTy).Contents (Elt Ideal)) (x3 : (⟨S10000, .f32⟩ : BufTy).Contents (Elt Ideal)) :
    val_main_v25 (F := Ideal) x0 x1 x2 x3 = logits x0 x1 x2 x3 := by
  funext i
  obtain ⟨r, c, rfl⟩ : ∃ (r : Fin 4096) (c : Fin 10000), i = ix2 r c := ⟨i 0, i 1, eq_ix2 i⟩
  rw [logits_apply]
  unfold logit cell
  rw [val_main_v25_apply, val_main_v19_apply, val_main_v24_apply, val_main_v15_apply, val_main_v18_apply,
    val_main_v13_apply, val_main_v14_apply, val_main_v11_apply, val_main_v12_apply, val_main_v10_apply,
    val_main_v9_apply, val_main_v8_apply, val_main_v1_apply, val_main_v4_apply, val_main_v3_apply,
    val_main_v7_apply, val_main_v6_apply, val_main_v17_apply, val_main_v16_apply,
    val_main_v23_apply, val_main_v22_apply, val_main_v21_apply, val_main_v20_apply, val_main_call0_v4_apply,
    val_main_call0_v2_apply, val_main_call0_v0_apply, val_main_call0_v3_apply, val_main_call0_v1_apply,
    val_main_cst_apply, val_main_cst_0_apply, val_main_cst_1_apply, val_main_cst_2_apply, val_main_cst_3_apply,
    val_main_cst_4_apply]
  -- the row sum of squares reads the features at (r, k)
  have e3 : ∀ k : Fin 1024, idx_main_v3 (idx_main_v4 (idx_main_v10 (ix2 r c))) k = ix2 r k := fun k =>
    funext fun a => Fin.ext (by match a with | ⟨0, _⟩ => rfl | ⟨1, _⟩ => rfl)
  -- the matrix product reads the features at (r, k) and the transposed means at (k, c), that is the means at (c, k)
  have el : ∀ k : Fin 1024, lidx_main_v1 (ix2 r c) k = ix2 r k := fun k =>
    funext fun a => Fin.ext (by match a with | ⟨0, _⟩ => rfl | ⟨1, _⟩ => rfl)
  have er : ∀ k : Fin 1024, idx_main_v0 (ridx_main_v1 (ix2 r c) k) = ix2 c k := fun k =>
    funext fun a => Fin.ext (by match a with | ⟨0, _⟩ => rfl | ⟨1, _⟩ => rfl)
  -- the class sum of squares reads the means at (c, k)
  have e6 : ∀ k : Fin 1024, idx_main_v6 (idx_main_v7 (idx_main_v12 (ix2 r c))) k = ix2 c k := fun k =>
    funext fun a => Fin.ext (by match a with | ⟨0, _⟩ => rfl | ⟨1, _⟩ => rfl)
  -- the scale is read at c, the label at r, and the class counter at column c is c
  have e17 : idx_main_v17 (idx_main_v18 (ix2 r c)) = ix1 c :=
    funext fun a => Fin.ext (by match a with | ⟨0, _⟩ => rfl)
  have ec0 : idx_main_call0_v0 (idx_main_call0_v2 (ix2 r c)) = ix1 r :=
    funext fun a => Fin.ext (by match a with | ⟨0, _⟩ => rfl)
  have ec3 : BitVec.ofNat 32 (idx_main_call0_v3 (ix2 r c) 1).val = BitVec.ofNat 32 c.val := rfl
  simp only [val_main_v2_apply, val_main_v5_apply, val_main_v0_apply, e3, el, er, e6, e17, ec0, ec3,
    Ideal.mulf_def, Ideal.addf_def, Ideal.subf_def, Ideal.ofBits_def, Ideal.ofBits_zero_f32, zero_add,
    uitofp_cmpi_eq]

end Cert.MarginLogits.Ref

end
-- ==== Proof.lean ====
/-
  The certificate of the margin-loss logits kernel against its plain reference.

  Both programs take a batch of 4096 feature rows x_r in R^1024, 10000 class means mu_c, one scale v_c per class and one
  label per row, and return three things: the array of logits

      ( -1/2 * ( (|x_r|^2 - 2 <x_r, mu_c>) + |mu_c|^2 ) ) * (v_c * v_c) * (1 + a [label_r = c]),

  a regularisation term, and the means unchanged. The reference computes the logits with whole-array operations. The
  kernel pads the classes with zeros to 10240, computes one 512 × 1024 block of logits per point of an 8 × 10 grid — the
  inner products by one matrix product of a block of rows with the transposed block of classes, the squared norms by sums
  along the rows, the indicator by comparing the labels with the block's class numbers — and cuts the padding away.

  On the extended reals the two agree entry by entry, with no condition on the entries: a block's entry is the same
  expression, over the same sums of the same 1024 terms in the same grouping, as the reference's entry; the padded
  classes are only read by entries that are cut away; a class number 1024 b + q is below 2^32, and equality of 32-bit
  words does not depend on which side the label stands. The regularisation term is computed by the same host lines
  in both programs, from the same arguments, so it is one function of them; it is never opened. The frames are the
  generated ones (the reference's its generated run with the results dropped), and the idealization rewrote nothing,
  so there is nothing to preserve.
-/
import proofs.«122609_j12163347383010_1_alg».proof.Defs
import proofs.«122609_j12163347383010_1_alg».proof.Proof.Gen.Kernel
import proofs.«122609_j12163347383010_1_alg».proof.Proof.Gen.Kernel.Skeleton
import proofs.«122609_j12163347383010_1_alg».proof.Proof.Gen.Kernel.Launch
import proofs.«122609_j12163347383010_1_alg».proof.Proof.Gen.Kernel.Points
import proofs.«122609_j12163347383010_1_alg».proof.Proof.KernelFrame
import proofs.«122609_j12163347383010_1_alg».proof.Proof.Gen.KernelIdeal
import proofs.«122609_j12163347383010_1_alg».proof.Proof.Gen.KernelIdeal.Skeleton
import proofs.«122609_j12163347383010_1_alg».proof.Proof.Gen.KernelIdeal.Launch
import proofs.«122609_j12163347383010_1_alg».proof.Proof.Gen.KernelIdeal.Points
import proofs.«122609_j12163347383010_1_alg».proof.Proof.KernelIdealFrame
import proofs.«122609_j12163347383010_1_alg».proof.Proof.Gen.ReferenceIdeal
import proofs.«122609_j12163347383010_1_alg».proof.Proof.Gen.ReferenceIdeal.Run
import proofs.«122609_j12163347383010_1_alg».proof.Proof.Gen.ReferenceIdeal.Read
import proofs.«122609_j12163347383010_1_alg».proof.Proof.Gen.Pre_finite_inputs
import proofs.«122609_j12163347383010_1_alg».proof.Proof.KernelValue
import proofs.«122609_j12163347383010_1_alg».proof.Proof.KernelTail
import proofs.«122609_j12163347383010_1_alg».proof.Proof.RefLogits
import Idealize.ShloMosaic.Adequacy
import Idealize.ShloMosaic.Init

noncomputable section

namespace Cert.Proof

open Idealize.ShloMosaic Idealize.ShloMosaic.TcCoe Idealize.SL.Sem

/-- The kernel's program as printed runs, and leaves its arguments alone. -/
theorem frame_kernel : Cert.frame_Kernel := fun m ρ _ => Cert.Kernel.GenP.frame m ρ

/-- So does its idealization. -/
theorem frame_kernel_ideal : Cert.frame_KernelIdeal := fun m ρ _ => Cert.KernelIdeal.GenP.frame m ρ

/-- So does the reference: its run, with the two results forgotten. -/
theorem frame_reference : Cert.frame_ReferenceIdeal := fun m ρ _ =>
  (θ_run Cert.ReferenceIdeal.defs _ _).mono (fun _ h c => (h c).2.2.2) (Cert.ReferenceIdeal.Value.run (F := Ideal) m ρ)

/-- The idealization rewrote no operation. -/
theorem preserves : Cert.preserves_Kernel_KernelIdeal := trivial

/-- From memories that agree on the four arguments both programs end with the logits of the arguments, the
    regularisation term of the arguments, and the means. -/
theorem algebraic : Cert.algebraic_KernelIdeal_ReferenceIdeal := by
  intro m ρ m' ρ' _ hagree
  refine ⟨fun c => Cert.MarginLogits.logits (m ((c : Thread Cert.KernelIdeal.nD Cert.KernelIdeal.τ).loc Cert.KernelIdeal.main_arg0))
        (m ((c : Thread Cert.KernelIdeal.nD Cert.KernelIdeal.τ).loc Cert.KernelIdeal.main_arg1))
        (m ((c : Thread Cert.KernelIdeal.nD Cert.KernelIdeal.τ).loc Cert.KernelIdeal.main_arg2))
        (m ((c : Thread Cert.KernelIdeal.nD Cert.KernelIdeal.τ).loc Cert.KernelIdeal.main_arg3)),
      fun c => Cert.MarginLogits.Tail.lossTerm (m ((c : Thread Cert.KernelIdeal.nD Cert.KernelIdeal.τ).loc Cert.KernelIdeal.main_arg0))
        (m ((c : Thread Cert.KernelIdeal.nD Cert.KernelIdeal.τ).loc Cert.KernelIdeal.main_arg1))
        (m ((c : Thread Cert.KernelIdeal.nD Cert.KernelIdeal.τ).loc Cert.KernelIdeal.main_arg2)),
      fun c => m ((c : Thread Cert.KernelIdeal.nD Cert.KernelIdeal.τ).loc Cert.KernelIdeal.main_arg2), ?_, ?_⟩
  · exact (θ_run Cert.KernelIdeal.defs _ _).mono
      (fun _ h c => ⟨(h c).1, (h c).2.1, (h c).2.2.2.2.1, (h c).2.2.1, (h c).2.2.2.1, (h c).2.2.2.2.1, (h c).2.2.2.2.2⟩)
      (Cert.MarginLogits.Kernel.run m ρ)
  · refine (θ_run Cert.ReferenceIdeal.defs _ _).mono (fun _ h c => ⟨?_, ?_, ?_, (h c).2.2.2⟩)
      (Cert.ReferenceIdeal.Value.run (F := Ideal) m' ρ')
    · rw [(h c).1, Cert.ReferenceIdeal.Read.val_main_v25_eq, Cert.MarginLogits.Ref.ref_logits,
        (hagree c).1, (hagree c).2.1, (hagree c).2.2.1, (hagree c).2.2.2]
    · rw [(h c).2.1, Cert.ReferenceIdeal.Read.val_main_v38_eq, Cert.MarginLogits.Tail.ref_loss,
        (hagree c).1, (hagree c).2.1, (hagree c).2.2.1]
    · exact (h c).2.2.1.trans (hagree c).2.2.1

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
